-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x32x32 : Shape := ⟨4, ![64, 256, 32, 32]⟩
abbrev S_ : Shape := ⟨0, ![]⟩

class Facts : Prop where
  bcast_S_S64x256x32x32 : S_.BroadcastsInDim S64x256x32x32 (![] : Fin 0 → Fin S64x256x32x32.rank)
  reducesTo_S64x256x32x32_S_d0_1_2_3 : S64x256x32x32.ReducesTo [0, 1, 2, 3] S_
  h_S_ : 0 < S_.numel

variable [Facts]

def fn {F : FTy → Type} [FloatOps F] (main_arg0 : FVec F S64x256x32x32 .f32) : IVec S_ 1 :=
  let main_v0 : FVec F S64x256x32x32 .f32 := Host.absf main_arg0
  let main_cst : FVec F S_ .f32 := constant S_ .f32 0x7F800000#32
  let main_v1 : FVec F S64x256x32x32 .f32 := broadcastInDim S64x256x32x32 ![] bcast_S_S64x256x32x32 main_cst
  let main_v2 : IVec S64x256x32x32 1 := cmpf .olt main_v0 main_v1
  let main_c : IVec S_ 1 := constantI S_ 1 1#1
  let main_v3 : IVec S_ 1 := (fun x v => Host.reduce IntOp.andi x v reducesTo_S64x256x32x32_S_d0_1_2_3 h_S_) main_v2 main_c
  main_v3
-- ==== Kernel.lean ====
abbrev S64x256x32x32 : Shape := ⟨4, ![64, 256, 32, 32]⟩
abbrev S16384x1024 : Shape := ⟨2, ![16384, 1024]⟩
abbrev S64x1024 : Shape := ⟨2, ![64, 1024]⟩
abbrev S2048x1024 : Shape := ⟨2, ![2048, 1024]⟩
abbrev S8x1024 : Shape := ⟨2, ![8, 1024]⟩
abbrev S8x256x1024 : Shape := ⟨3, ![8, 256, 1024]⟩
abbrev S64x32x32 : Shape := ⟨3, ![64, 32, 32]⟩

abbrev nBuf : Space → Nat
  | .hbm => 4
  | .vmem => 4
  | .smem => 0
  | _ => 0

abbrev bufTy : (tb : Table) → Fin (tcTables nBuf tb) → BufTy
  | .hbm, ⟨0, _⟩ => ⟨S64x256x32x32, .f32⟩
  | .hbm, ⟨1, _⟩ => ⟨S16384x1024, .f32⟩
  | .hbm, ⟨2, _⟩ => ⟨S64x1024, .f32⟩
  | .hbm, ⟨3, _⟩ => ⟨S64x32x32, .f32⟩
  | .local _ .vmem, ⟨0, _⟩ => ⟨S2048x1024, .f32⟩
  | .local _ .vmem, ⟨1, _⟩ => ⟨S2048x1024, .f32⟩
  | .local _ .vmem, ⟨2, _⟩ => ⟨S8x1024, .f32⟩
  | .local _ .vmem, ⟨3, _⟩ => ⟨S8x1024, .f32⟩
  | _, _ => ⟨S64x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64x256x32x32_S16384x1024 : S64x256x32x32.ShapeCasts S16384x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S2048x1024_S8x256x1024 : S2048x1024.ShapeCasts S8x256x1024
  reduces_S8x256x1024_S8x1024 : S8x256x1024.Reduces [1] S8x1024
  inb_S8x1024_S8x1024_0_0 : ∀ a, (![0, 0] : Fin 2 → Nat) a + S8x1024.size a ≤ S8x1024.size a
  h_S8x1024 : 0 < S8x1024.numel
  shapeCasts_S64x1024_S64x32x32 : S64x1024.ShapeCasts S64x32x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .f32 = 32 ∨ (Rect.block (s := S16384x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024.size a ≤ S64x1024.size a
  hwx0_1 : ∀ i : grid0.Coords, EltTy.bits .f32 = 32 ∨ (Rect.block (s := S64x1024) S8x1024.size (cc0_transform_1 i) (hinb0_1 i)).WholeWords (EltTy.packing .f32)

variable [Facts₀]

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x256x32x32 : Shape := ⟨4, ![64, 256, 32, 32]⟩
abbrev S64x256x1024 : Shape := ⟨3, ![64, 256, 1024]⟩
abbrev S64x1024 : Shape := ⟨2, ![64, 1024]⟩
abbrev S8x128x1024 : Shape := ⟨3, ![8, 128, 1024]⟩
abbrev S8x1024 : Shape := ⟨2, ![8, 1024]⟩
abbrev S64x32x32 : Shape := ⟨3, ![64, 32, 32]⟩

abbrev nBuf : Space → Nat
  | .hbm => 4
  | .vmem => 5
  | .smem => 0
  | _ => 0

abbrev bufTy : (tb : Table) → Fin (tcTables nBuf tb) → BufTy
  | .hbm, ⟨0, _⟩ => ⟨S64x256x32x32, .f32⟩
  | .hbm, ⟨1, _⟩ => ⟨S64x256x1024, .f32⟩
  | .hbm, ⟨2, _⟩ => ⟨S64x1024, .f32⟩
  | .hbm, ⟨3, _⟩ => ⟨S64x32x32, .f32⟩
  | .local _ .vmem, ⟨0, _⟩ => ⟨S8x128x1024, .f32⟩
  | .local _ .vmem, ⟨1, _⟩ => ⟨S8x128x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | _, _ => ⟨S64x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

class Facts₀ : Prop where
  shapeCasts_S64x256x32x32_S64x256x1024 : S64x256x32x32.ShapeCasts S64x256x1024
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S8x128x1024_S8x128x1024_0_0_0 : ∀ a, (![0, 0, 0] : Fin 3 → Nat) a + S8x128x1024.size a ≤ S8x128x1024.size a
  h_S8x128x1024 : 0 < S8x128x1024.numel
  shapeCasts_S8x128x1024_S8x128x1024 : S8x128x1024.ShapeCasts S8x128x1024
  reduces_S8x128x1024_S8x1024 : S8x128x1024.Reduces [1] S8x1024
  shapeCasts_S64x1024_S64x32x32 : S64x1024.ShapeCasts S64x32x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x1024.size a ≤ S64x256x1024.size a
  hwx0_0 : ∀ i : grid0.Coords, EltTy.bits .f32 = 32 ∨ (Rect.block (s := S64x256x1024) S8x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024.size a ≤ S64x1024.size a
  hwx0_1 : ∀ i : grid0.Coords, EltTy.bits .f32 = 32 ∨ (Rect.block (s := S64x1024) S8x1024.size (cc0_transform_1 i) (hinb0_1 i)).WholeWords (EltTy.packing .f32)

variable [Facts₀]

abbrev win0_0 : Pipeline.Window sig grid0 :=
  Pipeline.Window.ofSpec (Memref.whole main_v0) S8x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== Proof.LibLaneSum.lean ====
/-
  An f32 `vector.multi_reduction <add>` from the zero word, read on the extended reals as a finite sum.

  `laneSum_apply`: for any source shape, any single reduced axis `a` and any result index `j`, the reduction is the sum
  over `k : Fin (size of axis a)` of the source at `j` with `k` inserted on axis `a`. The accumulator's neutrality is
  taken as an equation between zero words, `0#32 = 0#32`, so the lemma applies by `.trans` to a reduction whose
  neutrality proof is `rfl` on the word.
  `lift_mid`: for a rank-3 source reduced over its middle axis, inserting `k` into `(r, p)` gives `(r, k, p)`.
  `midSum_apply`: the two together — an [A, B, C] array summed over its middle axis is, at `(r, p)`, the sum over
  `k : Fin B` of the entries `(r, k, p)`.
-/
import Idealize.ShloMosaic.PureOps.Ideal
import Idealize.ShloMosaic.PureOps.Ideal.Laws
import Idealize.ShloMosaic.Lib.ValueIdx

noncomputable section

open Idealize.ShloMosaic Idealize.ShloMosaic.ValueIdx
open scoped BigOperators

namespace Cert.LaneSum

/-- An f32 add-reduction over one axis from the zero word is the plain sum over that axis. -/
theorem laneSum_apply {s t : Shape} {a : Fin s.rank} (src : FVec Ideal s .f32) (h : s.Reduces [a] t)
    (hφ : FKind.Formats FTy.f32) (hacc : (0x00000000#32 : BitVec 32) = 0x00000000#32) (j : t.Idx) :
    multiReduction .add [a] t src 0x00000000#32 h hφ hacc j = ∑ k : Fin (s.size a), src (h.lift j k) :=
  Ideal.multiReduction_add_single src 0x00000000#32 h hφ hacc j

/-- Inserting `k` on the middle axis of `(r, p)` gives `(r, k, p)`. -/
theorem lift_mid {A B C : Nat} (h : (⟨3, ![A, B, C]⟩ : Shape).Reduces [1] ⟨2, ![A, C]⟩) (r : Fin A) (k : Fin B) (p : Fin C) :
    h.lift (ix2 r p) k = ix3 r k p := by
  funext d
  match d with
  | ⟨0, _⟩ => rfl
  | ⟨1, _⟩ => rfl
  | ⟨2, _⟩ => rfl

/-- An [A, B, C] array summed over its middle axis from the zero word: at `(r, p)`, the sum over `k` of `(r, k, p)`. -/
theorem midSum_apply {A B C : Nat} (src : FVec Ideal ⟨3, ![A, B, C]⟩ .f32)
    (h : (⟨3, ![A, B, C]⟩ : Shape).Reduces [1] ⟨2, ![A, C]⟩) (hφ : FKind.Formats FTy.f32)
    (hacc : (0x00000000#32 : BitVec 32) = 0x00000000#32) (r : Fin A) (p : Fin C) :
    multiReduction .add [1] ⟨2, ![A, C]⟩ src 0x00000000#32 h hφ hacc (ix2 r p) = ∑ k : Fin B, src (ix3 r k p) :=
  (laneSum_apply src h hφ hacc (ix2 r p)).trans (Finset.sum_congr rfl fun k _ => congrArg src (lift_mid h r k p))

end Cert.LaneSum

end
-- ==== Proof.ChannelSum.lean ====
/-
  The function both programs compute, and the two facts about sums that join them.

  For an array `x` of shape [64, 256, 32, 32] the result at batch `b` and flat position `p` (row `p / 32`,
  column `p % 32` of the 32 × 32 image) is the sum over the 256 channels `k` of `x[b, k, p / 32, p % 32]`.
  One program takes the 256 terms in one reduction; the other adds the first 128 to a zero, then the last 128 to
  that. On the extended reals addition is commutative and associative with neutral element zero (the sum of
  `+∞` and `-∞` is `-∞` either way round), so the two agree at every input, finite or not.
-/
import proofs.«109009_g2000200736048955_pallasbulk_888_3_alg».proof.Proof.LibLaneSum

noncomputable section

open Idealize.ShloMosaic Idealize.ShloMosaic.ValueIdx
open scoped BigOperators

namespace Cert.ChannelSum

/-- The sum over the channels at batch `b` and flat image position `p`. -/
def entry (x : (⟨4, ![64, 256, 32, 32]⟩ : Shape).Idx → EReal) (b : Fin 64) (p : Fin 1024) : EReal :=
  ∑ k : Fin 256, x (ix4 b k ⟨p.val / 32, by omega⟩ ⟨p.val % 32, by omega⟩)

/-- The channel sums as a [64, 1024] array. -/
def arr (x : (⟨4, ![64, 256, 32, 32]⟩ : Shape).Idx → EReal) : (⟨2, ![64, 1024]⟩ : Shape).Idx → EReal :=
  fun j => entry x (j 0) (j 1)

theorem arr_apply (x : (⟨4, ![64, 256, 32, 32]⟩ : Shape).Idx → EReal) (b : Fin 64) (p : Fin 1024) :
    arr x (ix2 b p) = entry x b p := rfl

/-- A sum of 256 terms is the sum of the first 128 plus the sum of the last 128. -/
theorem sum_halves {M : Type} [AddCommMonoid M] (f : Fin 256 → M) :
    ∑ k : Fin 256, f k
      = ∑ k : Fin 128, f ⟨k.val, by omega⟩ + ∑ k : Fin 128, f ⟨128 + k.val, by omega⟩ :=
  Fin.sum_univ_add (a := 128) (b := 128) f

/-- Zero plus the first half, plus the second half, is the whole sum. -/
theorem zero_add_halves (f : Fin 256 → EReal) :
    (0 + ∑ k : Fin 128, f ⟨k.val, by omega⟩) + ∑ k : Fin 128, f ⟨128 + k.val, by omega⟩ = ∑ k : Fin 256, f k := by
  rw [zero_add, ← sum_halves]

end Cert.ChannelSum

end
-- ==== Proof.KernelRows.lean ====
/-
  The one-pass program's result array.

  Its host line views the [64, 256, 32, 32] argument as 16384 rows of 1024: row `b * 256 + k` is channel `k` of batch
  `b`, laid out flat. Grid point `t` (of 8) takes rows `2048 t … 2048 t + 2047` — batches `8 t … 8 t + 7` — regroups
  them as [8, 256, 1024] and sums the middle axis: row `r` of its [8, 1024] result is the sum over `k` of row
  `r * 256 + k` of the block, that is the channel sum of batch `8 t + r`. The eight result blocks tile the [64, 1024]
  array, which therefore ends holding the channel sums; the closing host line views it as [64, 32, 32].
-/
import proofs.«109009_g2000200736048955_pallasbulk_888_3_alg».proof.Proof.Gen.KernelIdeal.Frame
import proofs.«109009_g2000200736048955_pallasbulk_888_3_alg».proof.Proof.ChannelSum
import Idealize.ShloMosaic.Lib.Pipeline.Value
import Idealize.ShloMosaic.Lib.StableHlo.Run
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.Rows

open Cert.KernelIdeal Cert.KernelIdeal.Gen

variable (m : (ℓ : Loc nD τ sig) → Buf (Elt Ideal) ℓ) (ρ : Dev nD → PrngReg)

theorem offsets_zero : (![0, 0] : Fin 2 → Nat) = fun _ => 0 := funext fun a => by fin_cases a <;> rfl

/-- Row `r` of a point's result is the sum over `k` of row `r * 256 + k` of its [2048, 1024] block. -/
theorem block_sum (x0 : Vec Ideal S2048x1024 .f32) (r : Fin 8) (p : Fin 1024) :
    k0_pay1 (F := Ideal) x0 (ix2 r p) = ∑ k : Fin 256, x0 (ix2 ⟨r.val * 256 + k.val, by omega⟩ p) := by
  unfold k0_pay1
  refine (Cert.LaneSum.laneSum_apply _ _ _ _ _).trans ?_
  refine Finset.sum_congr rfl fun k _ => ?_
  rw [shapeCast_self]
  refine shapeCast_apply _ _ _ _ ?_
  rw [Shape.rowMajor_val_two, Shape.rowMajor_val_three]
  rfl

/-- The array the region reads is the argument viewed as [16384, 1024]. -/
theorem entry_eq (c : Dev nD) :
    (V m c main_v0 : S16384x1024.Idx → EReal)
      = shapeCast S16384x1024 (m ((c : Thread nD τ).loc main_arg0)) shapeCasts_S64x256x32x32_S16384x1024 := by
  show StableHlo.after hostOps0 (fun b => m (c, b)) (Proc.devRef .tc main_v0) = _
  after_results
  rfl

/-- Row `b * 256 + k` of that view, at flat position `p`, is channel `k` of batch `b` at image position `p`. -/
theorem entry_apply (c : Dev nD) (b : Fin 64) (k : Fin 256) (p : Fin 1024) :
    (V m c main_v0 : S16384x1024.Idx → EReal) (ix2 ⟨b.val * 256 + k.val, by omega⟩ p)
      = m ((c : Thread nD τ).loc main_arg0) (ix4 b k ⟨p.val / 32, by omega⟩ ⟨p.val % 32, by omega⟩) := by
  rw [entry_eq]
  refine shapeCast_apply (s := S64x256x32x32) (t := S16384x1024) _ _ _ _ ?_
  rw [Shape.rowMajor_val_two, Shape.rowMajor_val_four]
  show ((b.val * 256 + k.val) * 32 + p.val / 32) * 32 + p.val % 32 = (b.val * 256 + k.val) * 1024 + p.val
  omega

/-- Where the blocks sit: at point `t` both windows are at block `t` of their first axis and block 0 of the second. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of the channel sums. -/
theorem flushed_eq (c : Dev nD) (t : Fin cfg0.N) :
    (dats m 0 c).flushed 1 t
      = ((cfg0.win 1).blk t).view.read (Elt Ideal) (Cert.ChannelSum.arr (m ((c : Thread nD τ).loc main_arg0))) := by
  show (cfg0.win 1).cut (grid0.coords t) ((dats m 0 c).after 1 t) = _
  rw [after0_1]
  unfold out0_1
  rw [View.canon_unit_zero offsets_zero]
  simp only [View.ld_unit_zero (S := S2048x1024) offsets_zero]
  obtain ⟨i00, i01, i10, i11⟩ := block_index t
  have ht : t.val < 8 := lt_of_lt_of_eq t.isLt N_0
  funext j
  obtain ⟨r, p, rfl⟩ : ∃ (r : Fin 8) (p : Fin 1024), j = ix2 r p := ⟨j 0, j 1, eq_ix2 j⟩
  show k0_pay1 (F := Ideal) (iblk m c 0 t) (ix2 r p)
    = Cert.ChannelSum.arr (m ((c : Thread nD τ).loc main_arg0)) (((cfg0.win 1).blk t).view.emb (ix2 r p))
  refine (block_sum (iblk m c 0 t) r p).trans ?_
  have e1 : ((cfg0.win 1).blk t).view.emb (ix2 r p) = ix2 (⟨t.val * 8 + r.val, by omega⟩ : Fin 64) p := by
    funext a; apply Fin.ext
    match a with
    | ⟨0, _⟩ => show win0_1.index t (0 : Fin 2) * 8 + 1 * r.val = t.val * 8 + r.val; omega
    | ⟨1, _⟩ => show win0_1.index t (1 : Fin 2) * 1024 + 1 * p.val = p.val; omega
  refine Eq.trans ?_ (congrArg (Cert.ChannelSum.arr (m ((c : Thread nD τ).loc main_arg0))) e1).symm
  rw [Cert.ChannelSum.arr_apply]
  unfold Cert.ChannelSum.entry
  refine Finset.sum_congr rfl fun k _ => ?_
  show (V m c main_v0 : S16384x1024.Idx → EReal) (((cfg0.win 0).blk t).view.emb (ix2 ⟨r.val * 256 + k.val, by omega⟩ p)) = _
  have e0 : ((cfg0.win 0).blk t).view.emb (ix2 (⟨r.val * 256 + k.val, by omega⟩ : Fin 2048) p)
      = ix2 (⟨(t.val * 8 + r.val) * 256 + k.val, by omega⟩ : Fin 16384) p := by
    funext a; apply Fin.ext
    match a with
    | ⟨0, _⟩ => show win0_0.index t (0 : Fin 2) * 2048 + 1 * (r.val * 256 + k.val) = (t.val * 8 + r.val) * 256 + k.val; omega
    | ⟨1, _⟩ => show win0_0.index t (1 : Fin 2) * 1024 + 1 * p.val = p.val; omega
  exact (congrArg (V m c main_v0 : S16384x1024.Idx → EReal) e0).trans (entry_apply m c ⟨t.val * 8 + r.val, by omega⟩ k p)

/-- Every index of the [64, 1024] array lies in the block of the point its row selects. -/
theorem covered (c : Dev nD) (i : ((cfg0.win 1).arr.view.loc (c.tc : Thread nD τ)).2.ty.Idx) :
    ∃ t : Fin cfg0.N, (cfg0.win 1).flush t = true ∧ i ∈ ((cfg0.win 1).blk t).view.set := by
  have h0 : (i 0).val < 64 := (i 0).isLt
  have h1 : (i 1).val < 1024 := (i 1).isLt
  have hq : (i 0).val / 8 < cfg0.N := by rw [show cfg0.N = 8 from N_0]; omega
  obtain ⟨-, -, i10, i11⟩ := block_index ⟨(i 0).val / 8, hq⟩
  refine ⟨⟨(i 0).val / 8, hq⟩, flush0_1 _, ?_⟩
  show i ∈ ((View.whole main_v1).slice (win0_1.rect ⟨(i 0).val / 8, hq⟩)).set
  rw [View.set_slice_whole, Rect.mem_set_unit]
  intro a
  match a with
  | ⟨0, _⟩ =>
    show win0_1.index ⟨(i 0).val / 8, hq⟩ (0 : Fin 2) * 8 ≤ (i 0).val
      ∧ (i 0).val < win0_1.index ⟨(i 0).val / 8, hq⟩ (0 : Fin 2) * 8 + 8
    rw [i10]
    show (i 0).val / 8 * 8 ≤ (i 0).val ∧ (i 0).val < (i 0).val / 8 * 8 + 8
    omega
  | ⟨1, _⟩ =>
    show win0_1.index ⟨(i 0).val / 8, hq⟩ (1 : Fin 2) * 1024 ≤ (i 1).val
      ∧ (i 1).val < win0_1.index ⟨(i 0).val / 8, hq⟩ (1 : Fin 2) * 1024 + 1024
    rw [i11]
    omega

/-- The region's result array ends holding the channel sums. -/
theorem final (c : Dev nD) :
    (dats m 0 c).arrAt 1 cfg0.N = Cert.ChannelSum.arr (m ((c : Thread nD τ).loc main_arg0)) :=
  (dats m 0 c).arrAt_eq_of_cover 1 _ (fun t _ => flushed_eq m c t) (covered c)

/-- The closing host line views that array as [64, 32, 32]. -/
theorem result_eq (c : Dev nD) :
    Pipeline.afterTail₀ cfgs (dats m) 0 (V0 m) [hostOps1] c main_v2
      = shapeCast S64x32x32 (Cert.ChannelSum.arr (m ((c : Thread nD τ).loc main_arg0))) shapeCasts_S64x1024_S64x32x32 := by
  unfold Pipeline.afterTail₀
  show StableHlo.after hostOps1 _ (Proc.devRef .tc main_v2) = _
  after_results
  have e : Pipeline.withArrays spec0 c (V0 m c) (fun w => (dats m 0 c).arrAt w cfg0.N) (Proc.devRef .tc (Pipeline.arrRef spec0 1))
      = Cert.ChannelSum.arr (m ((c : Thread nD τ).loc main_arg0)) :=
    (Pipeline.withArrays_arr spec0 launch0.win.arr_inj c _ _ 1).trans (final m c)
  exact congrArg (fun y => shapeCast S64x32x32 y shapeCasts_S64x1024_S64x32x32) e

/-- The run, read: the result at the channel sums viewed as [64, 32, 32], the argument as launched. -/
theorem run : θ_run defs (onTc (τ := τ) (main (F := Ideal))) ⟨m, fun _ => 0, ρ⟩ fun r => ∀ c : Dev nD,
      r.2.mem ((c : Thread nD τ).loc main_v2)
        = shapeCast S64x32x32 (Cert.ChannelSum.arr (m ((c : Thread nD τ).loc main_arg0))) shapeCasts_S64x1024_S64x32x32
      ∧ r.2.mem ((c : Thread nD τ).loc main_arg0) = m ((c : Thread nD τ).loc main_arg0) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c)⟩)
    (run_main m ρ)

end Cert.KernelIdeal.Rows

end
-- ==== Proof.ReferencePieces.lean ====
/-
  The two-pass program, one grid point at a time.

  Its grid is 8 × 1 × 2: point `t` (of 16) has first coordinate `t / 2` and last coordinate `t % 2`. It keeps an
  [8, 1024] accumulator between points. At an even point it zeroes the accumulator and then adds to it the lane sum
  of its [8, 128, 1024] block, leaving `0 + Σ` of the block's 128 channels; at an odd point it adds the lane sum of
  its block to what the point before left, and copies the accumulator to the output block. Here each case's stores are
  read back as values — what the accumulator and the output hold after the body — and those values are read at an
  index: the accumulated array plus the sum over the block's middle axis.
-/
import proofs.«109009_g2000200736048955_pallasbulk_888_3_alg».proof.Proof.Gen.ReferenceIdeal.Frame
import proofs.«109009_g2000200736048955_pallasbulk_888_3_alg».proof.Proof.ChannelSum
import Idealize.ShloMosaic.Lib.Pipeline.Value
import Idealize.ShloMosaic.Lib.Tactic

noncomputable section

open Idealize.ShloMosaic Idealize.ShloMosaic.TcCoe Idealize.ShloMosaic.ValueIdx Idealize.SL.Sem

namespace Cert.ReferenceIdeal.Pieces

open Cert.ReferenceIdeal Cert.ReferenceIdeal.Gen

variable {F : FTy → Type} [FloatOps F]

theorem offsets2_zero : (![0, 0] : Fin 2 → Nat) = fun _ => 0 := funext fun a => by fin_cases a <;> rfl
theorem offsets3_zero : (![0, 0, 0] : Fin 3 → Nat) = fun _ => 0 := funext fun a => by fin_cases a <;> rfl

/-- At a resetting point the accumulator ends at the zero array plus the block's lane sum: the second of its two whole
    stores is what remains, and its load of the accumulator reads the first store back. -/
theorem acc_reset (c : Dev nD) (i : grid0.Coords) (a3 : Memref sig .tc .vmem S8x128x1024 .f32) (h3 : a3.IsWhole)
    (a4 : Memref sig .tc .vmem S8x1024 .f32) (h4 : a4.IsWhole) (a5 : Memref sig .tc .vmem S8x1024 .f32) (h5 : a5.IsWhole)
    (hc0 : cond0_0 i) (hc1 : ¬cond0_1 i) (x : Vec F S8x128x1024 .f32) :
    sout0_A_0 c i a3 h3 a4 h4 a5 h5 hc0 hc1 x = k0_pay2 (k0_pay1 (F := F)) x := by
  unfold sout0_A_0
  rw [View.read_writes_eq_canon _ _ _ (scover0_A_0 c i a3 h3 a4 h4 a5 h5 hc0 hc1 x)]
  unfold kernelRun0_A
  dsimp only
  sl_unfold_words
  rw [View.canon_cons_unit_zero (S := S8x1024) offsets2_zero, View.readCov_unit_zero (S := S8x1024) _ offsets2_zero]
  simp only [View.readAt_eq_ld, h3.read_unread, View.ld_unit_zero (S := S8x128x1024) offsets3_zero]

/-- At an emitting point the accumulator ends at what it held plus the block's lane sum. -/
theorem acc_step (c : Dev nD) (i : grid0.Coords) (a3 : Memref sig .tc .vmem S8x128x1024 .f32) (h3 : a3.IsWhole)
    (a4 : Memref sig .tc .vmem S8x1024 .f32) (h4 : a4.IsWhole) (a5 : Memref sig .tc .vmem S8x1024 .f32) (h5 : a5.IsWhole)
    (hc0 : ¬cond0_0 i) (hc1 : cond0_1 i) (x : Vec F S8x128x1024 .f32) (xs : Vec F S8x1024 .f32) :
    sout0_B_0 c i a3 h3 a4 h4 a5 h5 hc0 hc1 x xs = k0_pay2 xs x := by
  unfold sout0_B_0
  rw [View.read_writes_eq_canon _ _ _ (scover0_B_0 c i a3 h3 a4 h4 a5 h5 hc0 hc1 x xs)]
  unfold kernelRun0_B
  dsimp only
  sl_unfold_words
  rw [View.canon_unit_zero offsets2_zero]
  simp only [View.readAt_eq_ld, h3.read_unread, h5.read_unread, View.ld_unit_zero (S := S8x128x1024) offsets3_zero,
    View.ld_unit_zero (S := S8x1024) offsets2_zero]

/-- … and the output block is that accumulator, read back after its store. -/
theorem out_step (c : Dev nD) (i : grid0.Coords) (a3 : Memref sig .tc .vmem S8x128x1024 .f32) (h3 : a3.IsWhole)
    (a4 : Memref sig .tc .vmem S8x1024 .f32) (h4 : a4.IsWhole) (a5 : Memref sig .tc .vmem S8x1024 .f32) (h5 : a5.IsWhole)
    (hc0 : ¬cond0_0 i) (hc1 : cond0_1 i) (x : Vec F S8x128x1024 .f32) (xs : Vec F S8x1024 .f32) :
    out0_B_1 c i a3 h3 a4 h4 a5 h5 hc0 hc1 x xs = k0_pay2 xs x := by
  unfold out0_B_1
  rw [View.read_writes_eq_canon _ _ _ (cover0_B_1 c i a3 h3 a4 h4 a5 h5 hc0 hc1 x xs)]
  unfold kernelRun0_B
  dsimp only
  sl_unfold_words
  rw [View.canon_unit_zero offsets2_zero, View.readCov_unit_zero (S := S8x1024) _ offsets2_zero]
  simp only [View.readAt_eq_ld, h3.read_unread, h5.read_unread, View.ld_unit_zero (S := S8x128x1024) offsets3_zero,
    View.ld_unit_zero (S := S8x1024) offsets2_zero]

/-- The zero array the reset stores is zero at every index. -/
theorem reset_apply (j : S8x1024.Idx) : k0_pay1 (F := Ideal) j = 0 := by
  unfold k0_pay1
  rw [shapeCast_self]
  exact Ideal.ofBits_zero_f32

/-- One accumulation step at an index: what the accumulator held there plus the sum over the block's 128 channels. -/
theorem step_apply (a : Vec Ideal S8x1024 .f32) (x : Vec Ideal S8x128x1024 .f32) (r : Fin 8) (p : Fin 1024) :
    k0_pay2 (F := Ideal) a x (ix2 r p) = a (ix2 r p) + ∑ k : Fin 128, x (ix3 r k p) := by
  unfold k0_pay2
  rw [shapeCast_self, shapeCast_self]
  show a (ix2 r p) + _ = _
  refine congrArg (a (ix2 r p) + ·) ?_
  exact Cert.LaneSum.midSum_apply x _ _ _ r p

/-- A reset step on block `x0` followed by a step on block `x1`, at an index: zero plus the sum over `x0`'s channels,
    plus the sum over `x1`'s. -/
theorem two_steps_apply (x0 x1 : Vec Ideal S8x128x1024 .f32) (r : Fin 8) (p : Fin 1024) :
    k0_pay2 (F := Ideal) (k0_pay2 (k0_pay1 (F := Ideal)) x0) x1 (ix2 r p)
      = (0 + ∑ k : Fin 128, x0 (ix3 r k p)) + ∑ k : Fin 128, x1 (ix3 r k p) := by
  rw [step_apply, step_apply, reset_apply]

end Cert.ReferenceIdeal.Pieces

end
-- ==== Proof.ReferenceHalves.lean ====
/-
  The two-pass program's result array.

  Its host line views the [64, 256, 32, 32] argument as [64, 256, 1024]. Point `t` (of 16) reads the block of batches
  `8 (t / 2) … 8 (t / 2) + 7` and channels `128 (t % 2) … 128 (t % 2) + 127`. An odd point `t` writes back, for batch
  `8 (t / 2) + r`, zero plus the sum of the first 128 channels (left by point `t - 1`) plus the sum of the last 128:
  the channel sum. The eight written blocks tile the [64, 1024] array; the closing host line views it as [64, 32, 32].
-/
import proofs.«109009_g2000200736048955_pallasbulk_888_3_alg».proof.Proof.ReferencePieces
import Idealize.ShloMosaic.Lib.StableHlo.Run

noncomputable section

open Idealize.ShloMosaic Idealize.ShloMosaic.TcCoe Idealize.ShloMosaic.ValueIdx Idealize.SL.Sem
open Idealize.ShloMosaic.Pipeline (Dat)

namespace Cert.ReferenceIdeal.Halves

open Cert.ReferenceIdeal Cert.ReferenceIdeal.Gen Cert.ReferenceIdeal.Pieces

variable (m : (ℓ : Loc nD τ sig) → Buf (Elt Ideal) ℓ) (ρ : Dev nD → PrngReg)

/-- The array the region reads is the argument viewed as [64, 256, 1024]. -/
theorem entry_eq (c : Dev nD) :
    (V m c main_v0 : S64x256x1024.Idx → EReal)
      = shapeCast S64x256x1024 (m ((c : Thread nD τ).loc main_arg0)) shapeCasts_S64x256x32x32_S64x256x1024 := by
  show StableHlo.after hostOps0 (fun b => m (c, b)) (Proc.devRef .tc main_v0) = _
  after_results
  rfl

/-- That view at batch `b`, channel `k`, flat position `p` is the argument at image position `p`. -/
theorem entry_apply (c : Dev nD) (b : Fin 64) (k : Fin 256) (p : Fin 1024) :
    (V m c main_v0 : S64x256x1024.Idx → EReal) (ix3 b k p)
      = m ((c : Thread nD τ).loc main_arg0) (ix4 b k ⟨p.val / 32, by omega⟩ ⟨p.val % 32, by omega⟩) := by
  rw [entry_eq]
  refine shapeCast_apply (s := S64x256x32x32) (t := S64x256x1024) _ _ _ _ ?_
  rw [Shape.rowMajor_val_three, Shape.rowMajor_val_four]
  show ((b.val * 256 + k.val) * 32 + p.val / 32) * 32 + p.val % 32 = (b.val * 256 + k.val) * 1024 + p.val
  omega

/-- Where the blocks sit at point `t`: batches block `t / 2`, channels block `t % 2`, all positions. -/
theorem block_index : ∀ t : Fin cfg0.N, win0_0.index t (0 : Fin 3) = t.val / 2 ∧ win0_0.index t (1 : Fin 3) = t.val % 2
    ∧ win0_0.index t (2 : Fin 3) = 0 ∧ win0_1.index t (0 : Fin 2) = t.val / 2 ∧ win0_1.index t (1 : Fin 2) = 0 :=
  (by decide +kernel : ∀ t : Fin grid0.N, _)

/-- After an even point the accumulator holds zero plus the lane sum of that point's block. -/
theorem acc_even (c : Dev nD) (t : Fin cfg0.N) (h0 : t.val % 2 = 0) :
    (outsAt0 m c t.val t.isLt).2 = k0_pay2 (k0_pay1 (F := Ideal)) (iblk m c 0 t) := by
  have h1 : ¬t.val % 2 = 1 := by omega
  rw [outsAt0_A m c t h0 h1]
  dsimp only
  exact acc_reset (F := Ideal) c (grid0.coords t) (ms0_0 t) (hs0_0 t) (ms0_1 t) (hs0_1 t) scM0_0 (Memref.isWhole_whole _)
    ((hcond0_0 t).mpr h0) (fun h => h1 ((hcond0_1 t).mp h)) (iblk m c 0 t)

/-- After an odd point the output block holds that plus the lane sum of this point's block. -/
theorem out_odd (c : Dev nD) (t : Fin cfg0.N) (h1 : t.val % 2 = 1) :
    (outsAt0 m c t.val t.isLt).1
      = k0_pay2 (k0_pay2 (k0_pay1 (F := Ideal)) (iblk m c 0 ⟨t.val - 1, Nat.lt_of_le_of_lt (Nat.sub_le _ _) t.isLt⟩))
          (iblk m c 0 t) := by
  have h0 : ¬t.val % 2 = 0 := by omega
  rw [outsAt0_B m c t h0 h1]
  dsimp only
  refine (out_step (F := Ideal) c (grid0.coords t) (ms0_0 t) (hs0_0 t) (ms0_1 t) (hs0_1 t) scM0_0 (Memref.isWhole_whole _)
    (fun h => h0 ((hcond0_0 t).mp h)) ((hcond0_1 t).mpr h1) (iblk m c 0 t)
    (outsAt0 m c (t.val - 1) (Nat.lt_of_le_of_lt (Nat.sub_le _ _) t.isLt)).2).trans ?_
  exact congrArg (fun a => k0_pay2 (F := Ideal) a (iblk m c 0 t))
    (acc_even m c ⟨t.val - 1, Nat.lt_of_le_of_lt (Nat.sub_le _ _) t.isLt⟩ (by show (t.val - 1) % 2 = 0; omega))

/-- What an odd point writes back is its block of the channel sums. -/
theorem flushed_eq (c : Dev nD) (t : Fin cfg0.N) (hf : (cfg0.win 1).flush t = true) :
    (dats m 0 c).flushed 1 t
      = ((cfg0.win 1).blk t).view.read (Elt Ideal) (Cert.ChannelSum.arr (m ((c : Thread nD τ).loc main_arg0))) := by
  have h1 : t.val % 2 = 1 := (flush0_1 t).mp hf
  have ht : t.val < 16 := lt_of_lt_of_eq t.isLt N_0
  show (cfg0.win 1).cut (grid0.coords t) ((dats m 0 c).after 1 t) = _
  rw [after0_1, out_odd m c t h1]
  obtain ⟨i00, i01, i02, i10, i11⟩ := block_index t
  obtain ⟨j00, j01, j02, -, -⟩ := block_index ⟨t.val - 1, Nat.lt_of_le_of_lt (Nat.sub_le _ _) t.isLt⟩
  have j00' : win0_0.index ⟨t.val - 1, Nat.lt_of_le_of_lt (Nat.sub_le _ _) t.isLt⟩ (0 : Fin 3) = (t.val - 1) / 2 := j00
  have j01' : win0_0.index ⟨t.val - 1, Nat.lt_of_le_of_lt (Nat.sub_le _ _) t.isLt⟩ (1 : Fin 3) = (t.val - 1) % 2 := j01
  funext j
  obtain ⟨r, p, rfl⟩ : ∃ (r : Fin 8) (p : Fin 1024), j = ix2 r p := ⟨j 0, j 1, eq_ix2 j⟩
  show k0_pay2 (F := Ideal) (k0_pay2 (k0_pay1 (F := Ideal)) (iblk m c 0 ⟨t.val - 1, Nat.lt_of_le_of_lt (Nat.sub_le _ _) t.isLt⟩))
      (iblk m c 0 t) (ix2 r p)
    = Cert.ChannelSum.arr (m ((c : Thread nD τ).loc main_arg0)) (((cfg0.win 1).blk t).view.emb (ix2 r p))
  refine (two_steps_apply (iblk m c 0 ⟨t.val - 1, Nat.lt_of_le_of_lt (Nat.sub_le _ _) t.isLt⟩) (iblk m c 0 t) r p).trans ?_
  have e1 : ((cfg0.win 1).blk t).view.emb (ix2 r p) = ix2 (⟨t.val / 2 * 8 + r.val, by omega⟩ : Fin 64) p := by
    funext a; apply Fin.ext
    match a with
    | ⟨0, _⟩ => show win0_1.index t (0 : Fin 2) * 8 + 1 * r.val = t.val / 2 * 8 + r.val; omega
    | ⟨1, _⟩ => show win0_1.index t (1 : Fin 2) * 1024 + 1 * p.val = p.val; omega
  refine Eq.trans ?_ (congrArg (Cert.ChannelSum.arr (m ((c : Thread nD τ).loc main_arg0))) e1).symm
  rw [Cert.ChannelSum.arr_apply]
  unfold Cert.ChannelSum.entry
  refine Eq.trans ?_ (Cert.ChannelSum.zero_add_halves fun k =>
    m ((c : Thread nD τ).loc main_arg0) (ix4 (⟨t.val / 2 * 8 + r.val, by omega⟩ : Fin 64) k ⟨p.val / 32, by omega⟩ ⟨p.val % 32, by omega⟩))
  refine congrArg₂ (· + ·) (congrArg (0 + ·) (Finset.sum_congr rfl fun k _ => ?_)) (Finset.sum_congr rfl fun k _ => ?_)
  · show (V m c main_v0 : S64x256x1024.Idx → EReal)
      (((cfg0.win 0).blk ⟨t.val - 1, Nat.lt_of_le_of_lt (Nat.sub_le _ _) t.isLt⟩).view.emb (ix3 r k p)) = _
    have e0 : ((cfg0.win 0).blk ⟨t.val - 1, Nat.lt_of_le_of_lt (Nat.sub_le _ _) t.isLt⟩).view.emb (ix3 r k p)
        = ix3 (⟨t.val / 2 * 8 + r.val, by omega⟩ : Fin 64) (⟨k.val, by omega⟩ : Fin 256) p := by
      funext a; apply Fin.ext
      match a with
      | ⟨0, _⟩ =>
        show win0_0.index ⟨t.val - 1, _⟩ (0 : Fin 3) * 8 + 1 * r.val = t.val / 2 * 8 + r.val
        rw [j00']; omega
      | ⟨1, _⟩ =>
        show win0_0.index ⟨t.val - 1, _⟩ (1 : Fin 3) * 128 + 1 * k.val = k.val
        rw [j01']; omega
      | ⟨2, _⟩ =>
        show win0_0.index ⟨t.val - 1, _⟩ (2 : Fin 3) * 1024 + 1 * p.val = p.val
        rw [j02]; omega
    exact (congrArg (V m c main_v0 : S64x256x1024.Idx → EReal) e0).trans
      (entry_apply m c ⟨t.val / 2 * 8 + r.val, by omega⟩ ⟨k.val, by omega⟩ p)
  · show (V m c main_v0 : S64x256x1024.Idx → EReal) (((cfg0.win 0).blk t).view.emb (ix3 r k p)) = _
    have e0 : ((cfg0.win 0).blk t).view.emb (ix3 r k p)
        = ix3 (⟨t.val / 2 * 8 + r.val, by omega⟩ : Fin 64) (⟨128 + k.val, by omega⟩ : Fin 256) p := by
      funext a; apply Fin.ext
      match a with
      | ⟨0, _⟩ => show win0_0.index t (0 : Fin 3) * 8 + 1 * r.val = t.val / 2 * 8 + r.val; omega
      | ⟨1, _⟩ => show win0_0.index t (1 : Fin 3) * 128 + 1 * k.val = 128 + k.val; omega
      | ⟨2, _⟩ => show win0_0.index t (2 : Fin 3) * 1024 + 1 * p.val = p.val; omega
    exact (congrArg (V m c main_v0 : S64x256x1024.Idx → EReal) e0).trans
      (entry_apply m c ⟨t.val / 2 * 8 + r.val, by omega⟩ ⟨128 + k.val, by omega⟩ p)

/-- Every index of the [64, 1024] array lies in the block the odd point of its row's group writes back. -/
theorem covered (c : Dev nD) (i : ((cfg0.win 1).arr.view.loc (c.tc : Thread nD τ)).2.ty.Idx) :
    ∃ t : Fin cfg0.N, (cfg0.win 1).flush t = true ∧ i ∈ ((cfg0.win 1).blk t).view.set := by
  have h0 : (i 0).val < 64 := (i 0).isLt
  have h1 : (i 1).val < 1024 := (i 1).isLt
  have hq : (i 0).val / 8 * 2 + 1 < cfg0.N := by rw [show cfg0.N = 16 from N_0]; omega
  obtain ⟨-, -, -, i10, i11⟩ := block_index ⟨(i 0).val / 8 * 2 + 1, hq⟩
  refine ⟨⟨(i 0).val / 8 * 2 + 1, hq⟩, (flush0_1 _).mpr (by show ((i 0).val / 8 * 2 + 1) % 2 = 1; omega), ?_⟩
  show i ∈ ((View.whole main_v1).slice (win0_1.rect ⟨(i 0).val / 8 * 2 + 1, hq⟩)).set
  rw [View.set_slice_whole, Rect.mem_set_unit]
  intro a
  match a with
  | ⟨0, _⟩ =>
    show win0_1.index ⟨(i 0).val / 8 * 2 + 1, hq⟩ (0 : Fin 2) * 8 ≤ (i 0).val
      ∧ (i 0).val < win0_1.index ⟨(i 0).val / 8 * 2 + 1, hq⟩ (0 : Fin 2) * 8 + 8
    rw [i10]
    show ((i 0).val / 8 * 2 + 1) / 2 * 8 ≤ (i 0).val ∧ (i 0).val < ((i 0).val / 8 * 2 + 1) / 2 * 8 + 8
    omega
  | ⟨1, _⟩ =>
    show win0_1.index ⟨(i 0).val / 8 * 2 + 1, hq⟩ (1 : Fin 2) * 1024 ≤ (i 1).val
      ∧ (i 1).val < win0_1.index ⟨(i 0).val / 8 * 2 + 1, hq⟩ (1 : Fin 2) * 1024 + 1024
    rw [i11]
    omega

/-- The region's result array ends holding the channel sums. -/
theorem final (c : Dev nD) :
    (dats m 0 c).arrAt 1 cfg0.N = Cert.ChannelSum.arr (m ((c : Thread nD τ).loc main_arg0)) :=
  (dats m 0 c).arrAt_eq_of_cover 1 _ (flushed_eq m c) (covered c)

/-- The closing host line views that array as [64, 32, 32]. -/
theorem result_eq (c : Dev nD) :
    Pipeline.afterTail₀ cfgs (dats m) 0 (V0 m) [hostOps1] c main_v2
      = shapeCast S64x32x32 (Cert.ChannelSum.arr (m ((c : Thread nD τ).loc main_arg0))) shapeCasts_S64x1024_S64x32x32 := by
  unfold Pipeline.afterTail₀
  show StableHlo.after hostOps1 _ (Proc.devRef .tc main_v2) = _
  after_results
  have e : Pipeline.withArrays spec0 c (V0 m c) (fun w => (dats m 0 c).arrAt w cfg0.N) (Proc.devRef .tc (Pipeline.arrRef spec0 1))
      = Cert.ChannelSum.arr (m ((c : Thread nD τ).loc main_arg0)) :=
    (Pipeline.withArrays_arr spec0 launch0.win.arr_inj c _ _ 1).trans (final m c)
  exact congrArg (fun y => shapeCast S64x32x32 y shapeCasts_S64x1024_S64x32x32) e

/-- The run, read: the result at the channel sums viewed as [64, 32, 32], the argument as launched. -/
theorem run : θ_run defs (onTc (τ := τ) (main (F := Ideal))) ⟨m, fun _ => 0, ρ⟩ fun r => ∀ c : Dev nD,
      r.2.mem ((c : Thread nD τ).loc main_v2)
        = shapeCast S64x32x32 (Cert.ChannelSum.arr (m ((c : Thread nD τ).loc main_arg0))) shapeCasts_S64x1024_S64x32x32
      ∧ r.2.mem ((c : Thread nD τ).loc main_arg0) = m ((c : Thread nD τ).loc main_arg0) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c)⟩)
    (run_main m ρ)

end Cert.ReferenceIdeal.Halves

end
-- ==== Proof.lean ====
/-
  Summing a [64, 256, 32, 32] array over its channel axis, two ways.

  One program views the argument as 16384 rows of 1024, and at each of 8 grid points regroups 2048 rows as
  [8, 256, 1024] and sums the middle axis: 256 terms at once per result element. The other views it as [64, 256, 1024]
  and, over a grid of 8 × 1 × 2 points, keeps an accumulator: zero, plus the first 128 channels, plus the last 128.
  Both then view the [64, 1024] result as [64, 32, 32].

  Read on the extended reals, each program's result at batch `b` and image position `(h, w)` is the sum over the 256
  channels `k` of `x[b, k, h, w]` (`Cert.ChannelSum`): for the first by reading its lane reduction as a finite sum
  and its row-major views index by index (`Cert.KernelIdeal.Rows`); for the second by reading what each grid point
  leaves in the accumulator and the output (`Cert.ReferenceIdeal.Pieces`), chaining an even point with the odd point
  after it, and splitting the 256-term sum into its halves (`Cert.ReferenceIdeal.Halves`). Addition of extended reals
  is commutative and associative with zero neutral, so the equality holds for every input and the finiteness of the
  inputs is never used. Nothing was rewritten between the word-level program and its exact reading, so that claim is
  trivial; the three programs' runs terminate without fault and keep their argument, by the generated run of each.
-/
import proofs.«109009_g2000200736048955_pallasbulk_888_3_alg».proof.Defs
import proofs.«109009_g2000200736048955_pallasbulk_888_3_alg».proof.Proof.Gen.Kernel.Frame
import proofs.«109009_g2000200736048955_pallasbulk_888_3_alg».proof.Proof.Gen.KernelIdeal.Frame
import proofs.«109009_g2000200736048955_pallasbulk_888_3_alg».proof.Proof.Gen.ReferenceIdeal.Frame
import proofs.«109009_g2000200736048955_pallasbulk_888_3_alg».proof.Proof.Gen.Pre_finite_inputs
import proofs.«109009_g2000200736048955_pallasbulk_888_3_alg».proof.Proof.KernelRows
import proofs.«109009_g2000200736048955_pallasbulk_888_3_alg».proof.Proof.ReferenceHalves
import Idealize.ShloMosaic.Adequacy
import Idealize.ShloMosaic.Init

noncomputable section

namespace Cert.Proof

open Idealize.ShloMosaic Idealize.SL.Sem

/-- Each program runs to the end without fault and keeps its argument array. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- No operation was rewritten for the exact reading. -/
theorem preserves : Cert.preserves_Kernel_KernelIdeal := trivial

/-- From arguments that agree, both programs end with the channel sums viewed as [64, 32, 32]. -/
theorem algebraic : Cert.algebraic_KernelIdeal_ReferenceIdeal := by
  intro m ρ m' ρ' _ hagree
  refine ⟨fun c => shapeCast Cert.KernelIdeal.S64x32x32
      (Cert.ChannelSum.arr (m ((c.tc : Thread Cert.KernelIdeal.nD Cert.KernelIdeal.τ).loc Cert.KernelIdeal.main_arg0)))
      Cert.KernelIdeal.Facts₀.shapeCasts_S64x1024_S64x32x32,
    Cert.KernelIdeal.Rows.run m ρ, ?_⟩
  refine (θ_run Cert.ReferenceIdeal.defs _ _).mono (fun _ h c => ⟨(h c).1.trans ?_, (h c).2⟩)
    (Cert.ReferenceIdeal.Halves.run m' ρ')
  rw [hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
